-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) (main_arg3 : IVec S4096x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 10
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S8192x4096, .bf16⟩
  | .hbm, ⟨9, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.StoredValues.lean ====
/-
  What each control case of the kernel body leaves behind, as values of what it read.
  The accumulator scratch after the body: in the first step of a run (the accumulator is zeroed, read back, and the
  block product added) the step applied to the zero block; in every later step the step applied to what the
  accumulator held. The output block, stored in the last step of a run only: the epilogue applied to the
  accumulator that step leaves and to the bias block.
-/
import proofs.«157323_j85787676770758_2_alg».proof.Proof.Gen.KernelIdeal.Frame
import Idealize.ShloMosaic.Lib.Pipeline.Value
import Idealize.ShloMosaic.Lib.Tactic

set_option maxRecDepth 16384

noncomputable section

namespace Cert.KernelIdeal.Stored

open Cert.KernelIdeal Cert.KernelIdeal.Gen Idealize.ShloMosaic Idealize.ShloMosaic.TcCoe Idealize.ShloMosaic.Tactic Idealize.SL.Sem

variable {F : FTy → Type} [FloatOps F]

theorem zero_offsets : (![0, 0] : Fin 2 → Nat) = fun _ => 0 := funext fun a => by fin_cases a <;> rfl

/-- First step of a run: the accumulator ends at the step applied to the zero block. -/
theorem scratch_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) zero_offsets, View.readCov_unit_zero (S := S1024x1024) _ zero_offsets]
  simp only [View.readAt_eq_ld, harg3.read_unread, harg4.read_unread, View.ld_unit_zero (S := S1024x1024) zero_offsets]

/-- A middle step of a run: the accumulator ends at the step applied to what it held. -/
theorem scratch_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero zero_offsets]
  simp only [View.readAt_eq_ld, harg7.read_unread, harg3.read_unread, harg4.read_unread,
    View.ld_unit_zero (S := S1024x1024) zero_offsets]

/-- The last step of a run: the accumulator ends at the step applied to what it held, -/
theorem scratch_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero zero_offsets]
  simp only [View.readAt_eq_ld, harg7.read_unread, harg3.read_unread, harg4.read_unread,
    View.ld_unit_zero (S := S1024x1024) zero_offsets]

/-- and the output block at the epilogue of that accumulator and the bias block. -/
theorem output_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero zero_offsets, View.readCov_unit_zero (S := S1024x1024) _ zero_offsets]
  simp only [View.readAt_eq_ld, harg7.read_unread, harg3.read_unread, harg4.read_unread, harg5.read_unread,
    View.ld_unit_zero (S := S1024x1024) zero_offsets, View.ld_unit_zero (S := S1x1024) zero_offsets]

end Cert.KernelIdeal.Stored

end
-- ==== Proof.Payload.lean ====
/-
  The three values the kernel body stores, read at an index over the extended reals.
  The reset block is zero everywhere. The accumulation step adds to the accumulator, at row p and column q, the sum
  over the block's 1024 contraction indices r of x[p, r] · w[q, r] (the matrix unit contracts the second axis of both
  operands into a zero accumulator, and a change of float format is the identity on the extended reals). The epilogue
  adds, at row p and column q, the entry of column q of the one-row bias block.
-/
import proofs.«157323_j85787676770758_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The dot's left operand index at output index i and contraction index k: row of i, column k. -/
theorem lhs_row (i : S1024x1024.Idx) (k : dot_S1024x1024_S1024x1024_S1024x1024_1_1_0_0_n_n.contr.Idx) : (dot_S1024x1024_S1024x1024_S1024x1024_1_1_0_0_n_n.lhsIdx i k 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem lhs_col (i : S1024x1024.Idx) (k : dot_S1024x1024_S1024x1024_S1024x1024_1_1_0_0_n_n.contr.Idx) : (dot_S1024x1024_S1024x1024_S1024x1024_1_1_0_0_n_n.lhsIdx i k 1).val = (k ⟨0, by decide⟩).val :=
  dot_S1024x1024_S1024x1024_S1024x1024_1_1_0_0_n_n.lhsIdx_val_of_single rfl i k

/-- The right operand index: row the column of i, column k (the dot contracts the second axis of both operands). -/
theorem rhs_row (i : S1024x1024.Idx) (k : dot_S1024x1024_S1024x1024_S1024x1024_1_1_0_0_n_n.contr.Idx) : (dot_S1024x1024_S1024x1024_S1024x1024_1_1_0_0_n_n.rhsIdx i k 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem rhs_col (i : S1024x1024.Idx) (k : dot_S1024x1024_S1024x1024_S1024x1024_1_1_0_0_n_n.contr.Idx) : (dot_S1024x1024_S1024x1024_S1024x1024_1_1_0_0_n_n.rhsIdx i k 1).val = (k ⟨0, by decide⟩).val :=
  dot_S1024x1024_S1024x1024_S1024x1024_1_1_0_0_n_n.rhsIdx_val_of_single rfl i k

/-- The product of two 1024 × 1024 blocks into a zero accumulator, at (p, q): the sum over r of x[p, r] · w[q, r]. -/
theorem block_product_apply (x w : FVec Ideal S1024x1024 .bf16) (p q : Fin 1024) :
    matmul (F := Ideal) dot_S1024x1024_S1024x1024_S1024x1024_1_1_0_0_n_n none x w (constant S1024x1024 .f32 0x00000000#32) (ix2 p q)
      = ∑ r : Fin 1024, x (ix2 p r) * w (ix2 q r) := by
  simp only [matmul]
  rw [Ideal.matmul_constant_zero_apply, ← Equiv.sum_comp (contrEquiv1 dot_S1024x1024_S1024x1024_S1024x1024_1_1_0_0_n_n 1024 rfl rfl).symm]
  refine Finset.sum_congr rfl fun r _ => ?_
  have hk := contrEquiv1_symm_val dot_S1024x1024_S1024x1024_S1024x1024_1_1_0_0_n_n 1024 rfl rfl r
  have el : dot_S1024x1024_S1024x1024_S1024x1024_1_1_0_0_n_n.lhsIdx (ix2 p q) ((contrEquiv1 dot_S1024x1024_S1024x1024_S1024x1024_1_1_0_0_n_n 1024 rfl rfl).symm r) = ix2 p r := funext fun a => Fin.ext (by
    match a with
    | ⟨0, _⟩ => exact lhs_row _ _
    | ⟨1, _⟩ => exact (lhs_col _ _).trans hk)
  have er : dot_S1024x1024_S1024x1024_S1024x1024_1_1_0_0_n_n.rhsIdx (ix2 p q) ((contrEquiv1 dot_S1024x1024_S1024x1024_S1024x1024_1_1_0_0_n_n 1024 rfl rfl).symm r) = ix2 q r := funext fun a => Fin.ext (by
    match a with
    | ⟨0, _⟩ => exact rhs_row _ _
    | ⟨1, _⟩ => exact (rhs_col _ _).trans hk)
  rw [el, er]

/-- The reset block is zero at every index. -/
theorem reset_apply (y : S1024x1024.Idx) : k0_pay1 (F := Ideal) y = 0 := by
  unfold k0_pay1
  rw [shapeCast_self]
  exact Ideal.ofBits_zero_f32

/-- The accumulation step at (p, q): the accumulator there plus the block product there. -/
theorem step_apply (acc : Vec Ideal S1024x1024 .f32) (x w : Vec Ideal S1024x1024 .bf16) (p q : Fin 1024) :
    k0_pay2 (F := Ideal) acc x w (ix2 p q) = acc (ix2 p q) + ∑ r : Fin 1024, x (ix2 p r) * w (ix2 q r) := by
  unfold k0_pay2
  simp only [shapeCast_self]
  exact congrArg (acc (ix2 p q) + ·) (block_product_apply x w p q)

/-- The one-row bias block broadcast over the rows, at (p, q): the block's entry of column q. -/
theorem bias_rows_apply (b : FVec Ideal S1x1024 .f32) (p q : Fin 1024) :
    broadcastTo S1024x1024 b broadcasts_S1x1024_S1024x1024 (ix2 p q) = b (ix2 (0 : Fin 1) q) :=
  broadcastTo_apply b broadcasts_S1x1024_S1024x1024 (ix2 p q) (ix2 (0 : Fin 1) q) (fun a => by
    match a with
    | ⟨0, _⟩ => exact (if_pos rfl).symm
    | ⟨1, _⟩ => exact (if_neg (show ¬(1024 : ℕ) = 1 by decide)).symm)

/-- The epilogue at (p, q): the accumulator there plus the bias block's entry of column q. -/
theorem epilogue_apply (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  simp only [shapeCast_self]
  exact congrArg (acc (ix2 p q) + ·) (bias_rows_apply b p q)

end Cert.KernelIdeal.Payload

end
-- ==== Proof.Accum.lean ====
/-
  The accumulator across a run. The four grid points 4·u, 4·u + 1, 4·u + 2, 4·u + 3 share their row block and
  column block and walk the four contraction blocks in order: the first zeroes the accumulator and adds its block
  product, each later one adds its own, and the last also stores accumulator + bias into the output block. So after
  point t the accumulator holds, entry by entry, zero plus the sum of the block products of the points
  4·(t/4) … t, and the output block written at a last point is that accumulator plus the bias block's row.
-/
import proofs.«157323_j85787676770758_2_alg».proof.Proof.Gen.KernelIdeal.Value
import proofs.«157323_j85787676770758_2_alg».proof.Proof.StoredValues
import proofs.«157323_j85787676770758_2_alg».proof.Proof.Payload

noncomputable section

namespace Cert.KernelIdeal.Accum

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The product of an x block and a masked-weight block at block entry y = (p, q): the sum over the 1024
    contraction indices r of x[p, r] · w[q, r]. -/
def blockProduct (x w : Vec Ideal S1024x1024 .bf16) (y : S1024x1024.Idx) : EReal :=
  ∑ r : Fin 1024, x (ix2 (y 0) r) * w (ix2 (y 1) r)

/-- A block product at (p, q) is the sum of any summands equal to its own, index by index. -/
theorem blockProduct_eq_sum (x w : Vec Ideal S1024x1024 .bf16) (p q : Fin 1024) (f : Fin 1024 → EReal)
    (h : ∀ r, x (ix2 p r) * w (ix2 q r) = f r) : blockProduct x w (ix2 p q) = ∑ r : Fin 1024, f r :=
  Finset.sum_congr rfl fun r _ => h r

/-- The block product of point n — of the x block and the masked-weight block that point reads —, zero for a number
    past the grid. -/
def addend (c : Dev nD) (n : ℕ) (y : S1024x1024.Idx) : EReal :=
  if h : n < cfg0.N then blockProduct (iblk m c 0 ⟨n, h⟩) (iblk m c 1 ⟨n, h⟩) y else 0

/-- The accumulation step at point n adds that point's block product to the accumulator, entry by entry. -/
theorem step_at (c : Dev nD) (n : ℕ) (h : n < cfg0.N) (acc : Vec Ideal S1024x1024 .f32) (y : S1024x1024.Idx) :
    k0_pay2 (F := Ideal) acc (iblk m c 0 ⟨n, h⟩) (iblk m c 1 ⟨n, h⟩) y = acc y + addend m c n y := by
  unfold addend
  rw [dif_pos h]
  obtain ⟨p, q, rfl⟩ : ∃ (p : Fin 1024) (q : Fin 1024), y = ix2 p q := ⟨y 0, y 1, eq_ix2 y⟩
  exact Payload.step_apply acc (iblk m c 0 ⟨n, h⟩) (iblk m c 1 ⟨n, h⟩) p q

/-- After point t the accumulator holds zero plus the block products of the points of t's run up to t. -/
theorem scratch_eq (c : Dev nD) (t : Fin cfg0.N) (y : S1024x1024.Idx) :
    (outsAt0 m c t.val t.isLt).2 y
      = 0 + ∑ s ∈ Finset.range (t.val % 4 + 1), addend m c (4 * (t.val / 4) + s) y := by
  have hN : cfg0.N = 128 := N_0
  have ht := t.isLt
  rw [Value.soutsAt0_0_eq m c t]
  refine Pipeline.accAt_add_apply (ι := S1024x1024.Idx) (β := EReal) _ _ (fun _ => 0) (addend m c)
    (4 * (t.val / 4)) 3 ?_ ?_ (t.val % 4) (by omega) _ y
  · intro h i
    have h0 : (4 * (t.val / 4)) % 4 = 0 := Nat.mul_mod_right 4 _
    have h1 : ¬(4 * (t.val / 4)) % 4 = 3 := by omega
    show Value.scAt0_0 m c (4 * (t.val / 4)) h _ i = 0 + addend m c (4 * (t.val / 4)) i
    unfold Value.scAt0_0
    rw [dif_pos h0, dif_neg h1, Stored.scratch_first, step_at, Payload.reset_apply]
  · intro n h acc i hb he
    have h0 : ¬n % 4 = 0 := by omega
    unfold Value.scAt0_0
    rw [dif_neg h0]
    by_cases h1 : n % 4 = 3
    · rw [dif_pos h1, Stored.scratch_last]
      exact step_at m c n h acc i
    · rw [dif_neg h1, Stored.scratch_middle]
      exact step_at m c n h acc i

/-- At the last point of a run the output block is the epilogue of the accumulator that point leaves. -/
theorem out_eq (c : Dev nD) (t : Fin cfg0.N) (h3 : t.val % 4 = 3) :
    (outsAt0 m c t.val t.isLt).1 = k0_pay3 (F := Ideal) ((outsAt0 m c t.val t.isLt).2) (iblk m c 2 t) := by
  have h0 : ¬t.val % 4 = 0 := by omega
  rw [outsAt0_C m c t h0 h3]
  dsimp only
  rw [Stored.output_last, Stored.scratch_last]

end Cert.KernelIdeal.Accum

end
-- ==== Proof.Blocks.lean ====
/-
  What the kernel body reads at a grid point, in terms of the whole arrays.
  The grid is 8 × 4 × 4 — row block i, column block j, contraction block k, the last running fastest — and its
  points are numbered t = 16·i + 4·j + k, so i = t / 16, j = t / 4 mod 4, k = t mod 4. At point t the body reads
  the 1024 × 1024 block of x at rows 1024·i … and contraction columns 1024·k …, the block of the masked weight at
  rows 1024·j … and the same contraction columns, and the entries 1024·j … of the one-row bias; it writes the block
  of the result at rows 1024·i … and columns 1024·j ….
  Before the region the program prepares those arrays from its arguments: x is the first argument under a change of
  float format (the identity on the extended reals), the masked weight is weight × mask-read-as-a-float entry by entry
  under the same change of format, and the bias row is the bias reshaped to one row.
-/
import proofs.«157323_j85787676770758_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.StableHlo Idealize.ShloMosaic.ValueIdx

/-- The block each window is on at point t, decided over the 128 points. -/
theorem block_index : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

section Reads

variable {F : FTy → Type} [FloatOps F]
variable (m : (ℓ : Loc nD τ sig) → Buf (Elt F) ℓ)

/-- Entry (p, r) of the x block at point t is entry (1024·(t/16) + p, 1024·(t mod 4) + r) of x. -/
theorem x_block_apply (c : Dev nD) (t : Fin cfg0.N) (p r : Fin 1024) (I : S8192x4096.Idx)
    (h0 : (I 0).val = 1024 * (t.val / 16) + p.val) (h1 : (I 1).val = 1024 * (t.val % 4) + r.val) :
    (iblk m c 0 t : Vec F S1024x1024 .bf16) (ix2 p r) = V m c main_v4 I := by
  obtain ⟨e0, e1, -⟩ := block_index t
  unfold iblk
  rw [View.read_apply]
  show V m c main_v4 _ = V m c main_v4 I
  congr 1
  funext a
  apply Fin.ext
  match a with
  | ⟨0, _⟩ => show win0_0.index t (0 : Fin 2) * 1024 + 1 * p.val = (I 0).val; omega
  | ⟨1, _⟩ => show win0_0.index t (1 : Fin 2) * 1024 + 1 * r.val = (I 1).val; omega

/-- Entry (q, r) of the masked-weight block at point t is entry (1024·(t/4 mod 4) + q, 1024·(t mod 4) + r). -/
theorem w_block_apply (c : Dev nD) (t : Fin cfg0.N) (q r : Fin 1024) (I : S4096x4096.Idx)
    (h0 : (I 0).val = 1024 * (t.val / 4 % 4) + q.val) (h1 : (I 1).val = 1024 * (t.val % 4) + r.val) :
    (iblk m c 1 t : Vec F S1024x1024 .bf16) (ix2 q r) = V m c main_v3 I := by
  obtain ⟨-, -, e0, e1, -⟩ := block_index t
  unfold iblk
  rw [View.read_apply]
  show V m c main_v3 _ = V m c main_v3 I
  congr 1
  funext a
  apply Fin.ext
  match a with
  | ⟨0, _⟩ => show win0_1.index t (0 : Fin 2) * 1024 + 1 * q.val = (I 0).val; omega
  | ⟨1, _⟩ => show win0_1.index t (1 : Fin 2) * 1024 + 1 * r.val = (I 1).val; omega

/-- Entry q of the bias block at point t is entry 1024·(t/4 mod 4) + q of the bias row. -/
theorem bias_block_apply (c : Dev nD) (t : Fin cfg0.N) (q : Fin 1024) (I : S1x4096.Idx)
    (h1 : (I 1).val = 1024 * (t.val / 4 % 4) + q.val) :
    (iblk m c 2 t : Vec F S1x1024 .f32) (ix2 (0 : Fin 1) q) = V m c main_v0 I := by
  obtain ⟨-, -, -, -, e0, e1, -⟩ := block_index t
  have hI0 : (I 0).val = 0 := by have hlt : (I 0).val < 1 := (I 0).isLt; omega
  unfold iblk
  rw [View.read_apply]
  show V m c main_v0 _ = V m c main_v0 I
  congr 1
  funext a
  apply Fin.ext
  match a with
  | ⟨0, _⟩ => show win0_2.index t (0 : Fin 2) * 1 + 1 * 0 = (I 0).val; omega
  | ⟨1, _⟩ => show win0_2.index t (1 : Fin 2) * 1024 + 1 * q.val = (I 1).val; omega

end Reads

section Entry

variable (m : (ℓ : Loc nD τ sig) → Buf (Elt Ideal) ℓ)

/-- The region finds x as launched. -/
theorem x_entry (c : Dev nD) :
    (V m c main_v4 : S8192x4096.Idx → EReal) = m ((c : Thread nD τ).loc main_arg0) := by
  dsimp only [Gen.V, Gen.hostOps0]
  after_results
  rfl

/-- The region finds the masked weight: weight × mask read as a float, entry by entry. -/
theorem w_entry (c : Dev nD) :
    (V m c main_v3 : S4096x4096.Idx → EReal)
      = mulf (F := Ideal) (m ((c : Thread nD τ).loc main_arg1)) (sitofp .f32 (m ((c : Thread nD τ).loc main_arg3))) := by
  dsimp only [Gen.V, Gen.hostOps0]
  after_results
  rfl

/-- The region finds the bias as one row: its entry (0, C) is the bias's entry C. -/
theorem bias_entry (c : Dev nD) (I : S1x4096.Idx) (J : S4096.Idx) (h : (J 0).val = (I 1).val) :
    (V m c main_v0 : S1x4096.Idx → EReal) I = m ((c : Thread nD τ).loc main_arg2) J := by
  have e : (V m c main_v0 : S1x4096.Idx → EReal)
      = shapeCast S1x4096 (m ((c : Thread nD τ).loc main_arg2)) shapeCasts_S4096_S1x4096 := by
    dsimp only [Gen.V, Gen.hostOps0]
    after_results
    rfl
  rw [e]
  refine shapeCast_apply _ _ I J ?_
  rw [Shape.rowMajor_val_one, Shape.rowMajor_val_two]
  have hI0 : (I 0).val = 0 := by have hlt : (I 0).val < 1 := (I 0).isLt; omega
  show (J 0).val = (I 0).val * 4096 + (I 1).val
  omega

end Entry

end Cert.KernelIdeal.Blocks

end
-- ==== Proof.BlockSum.lean ====
/-
  A sum over an axis of extent K·B is the sum, block after block, of the sums over the K consecutive blocks of
  extent B: the law that joins a contraction accumulated block by block with the whole contraction. It holds in any
  commutative additive monoid (only associativity and commutativity of the sum are used), so on the extended reals
  it needs no finiteness.
-/
import Mathlib.Algebra.BigOperators.Fin
import Mathlib.Algebra.BigOperators.Intervals

namespace Cert.BlockSum

open Finset

variable {M : Type*} [AddCommMonoid M]

/-- The index `a mod n` of an axis of positive extent `n`: the index `a` itself when `a < n`. A total way of
    naming the index `B·s + r` of a blocked axis without carrying its bound. -/
def wrap (n : ℕ) (hn : 0 < n) (a : ℕ) : Fin n := ⟨a % n, Nat.mod_lt a hn⟩

theorem wrap_val_of_lt {n : ℕ} (hn : 0 < n) {a : ℕ} (h : a < n) : (wrap n hn a).val = a :=
  Nat.mod_eq_of_lt h

theorem wrap_val_self {n : ℕ} (hn : 0 < n) (k : Fin n) : wrap n hn k.val = k :=
  Fin.ext (Nat.mod_eq_of_lt k.isLt)

/-- A sum over the first `K·B` naturals is the sum over the `K` blocks of the sums over each block's `B` members. -/
theorem sum_range_mul (g : ℕ → M) (B : ℕ) :
    ∀ K : ℕ, ∑ n ∈ range (K * B), g n = ∑ s ∈ range K, ∑ r ∈ range B, g (B * s + r)
  | 0 => by simp
  | K + 1 => by
    rw [Nat.succ_mul, sum_range_add, sum_range_mul g B K, sum_range_succ, Nat.mul_comm K B]

/-- The same over an axis of extent `K·B`: each index is `B·s + r` for one block `s` and one `r` inside it. -/
theorem sum_fin_blocks (K B : ℕ) (hn : 0 < K * B) (f : Fin (K * B) → M) :
    ∑ k : Fin (K * B), f k = ∑ s ∈ range K, ∑ r : Fin B, f (wrap (K * B) hn (B * s + r.val)) := by
  have h1 : ∑ k : Fin (K * B), f k = ∑ n ∈ range (K * B), f (wrap (K * B) hn n) := by
    rw [← Fin.sum_univ_eq_sum_range (fun n => f (wrap (K * B) hn n)) (K * B)]
    exact Finset.sum_congr rfl fun k _ => by rw [wrap_val_self]
  rw [h1, sum_range_mul]
  refine Finset.sum_congr rfl fun s _ => ?_
  exact (Fin.sum_univ_eq_sum_range (fun r => f (wrap (K * B) hn (B * s + r))) B).symm

/-- A contraction axis of extent 4096 as four consecutive blocks of extent 1024. -/
theorem sum_four_blocks (f : Fin 4096 → M) :
    ∑ k : Fin 4096, f k
      = ∑ s ∈ range 4, ∑ r : Fin 1024, f (wrap 4096 (by decide) (1024 * s + r.val)) :=
  sum_fin_blocks 4 1024 (by decide) f

end Cert.BlockSum
-- ==== Proof.Linear.lean ====
/-
  The masked linear layer as one function of whole arrays over the extended reals:
      out[R, C] = (Σ_k x[R, k] · w[C, k]) + b[C]
  for x of 8192 × 4096, w of 4096 × 4096 (the weight already multiplied by its mask) and b of 4096, and the same entry
  computed the way a tiled kernel does: starting from zero, the four partial contractions over the consecutive
  blocks of 1024 contraction indices added one after the other, then the bias. The two agree by associativity and
  commutativity of the sum alone, so no entry needs to be finite.
-/
import Idealize.ShloMosaic.PureOps.Ideal
import Idealize.ShloMosaic.Lib.ValueIdx
import proofs.«157323_j85787676770758_2_alg».proof.Proof.BlockSum

noncomputable section

namespace Cert.Linear

open Idealize.ShloMosaic Idealize.ShloMosaic.ValueIdx Cert.BlockSum

/-- The contraction index `1024·s + r` of block `s`, as an index of the whole axis. -/
abbrev kIdx (s : ℕ) (r : Fin 1024) : Fin 4096 := wrap 4096 (by decide) (1024 * s + r.val)

/-- The layer's result at entry (R, C). -/
def linear (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun I => (∑ k : Fin 4096, x (ix2 (I 0) k) * w (ix2 (I 1) k)) + b (ix1 (I 1))

/-- The partial contraction of entry (R, C) over contraction block `s`: the sum over the block's 1024 indices. -/
def blockTerm (x : (⟨2, ![8192, 4096]⟩ : Shape).Idx → EReal) (w : (⟨2, ![4096, 4096]⟩ : Shape).Idx → EReal)
    (I : (⟨2, ![8192, 4096]⟩ : Shape).Idx) (s : ℕ) : EReal :=
  ∑ r : Fin 1024, x (ix2 (I 0) (kIdx s r)) * w (ix2 (I 1) (kIdx s r))

/-- The same entry accumulated from zero over the four contraction blocks in order, then the bias added. -/
theorem linear_eq_blocks (x : (⟨2, ![8192, 4096]⟩ : Shape).Idx → EReal) (w : (⟨2, ![4096, 4096]⟩ : Shape).Idx → EReal)
    (b : (⟨1, ![4096]⟩ : Shape).Idx → EReal) (I : (⟨2, ![8192, 4096]⟩ : Shape).Idx) :
    (0 + ∑ s ∈ Finset.range (3 + 1), blockTerm x w I s) + b (ix1 (I 1)) = linear x w b I := by
  unfold linear blockTerm
  rw [zero_add, sum_four_blocks (fun k => x (ix2 (I 0) k) * w (ix2 (I 1) k))]

end Cert.Linear

end
-- ==== Proof.KernelResult.lean ====
/-
  The kernel's result array. At the last point of a run the block written back holds, at block entry (p, q), the
  accumulator plus the bias: zero plus the four block products of the run plus b[C], where R = 1024·i + p and
  C = 1024·j + q are the entry's row and column in the whole result. Read through the whole arrays, the block
  product of the run's s-th point is the sum over r of x[R, 1024·s + r] · w[C, 1024·s + r], so the entry is the
  layer's entry computed block by block, which is the layer's entry. The 32 last points' blocks tile the
  8192 × 4096 result (the block holding (R, C) is written at point 16·(R/1024) + 4·(C/1024) + 3), so the result
  array ends at the layer function of the arguments.
-/
import proofs.«157323_j85787676770758_2_alg».proof.Proof.Accum
import proofs.«157323_j85787676770758_2_alg».proof.Proof.Blocks
import proofs.«157323_j85787676770758_2_alg».proof.Proof.Linear

noncomputable section

namespace Cert.KernelIdeal.Result

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The layer function of the argument arrays: x, the weight times its mask read as a float, and the bias. -/
def result (c : Dev nD) : Buf (Elt Ideal) ((c : Thread nD τ).loc main_v5) :=
  Linear.linear (m ((c : Thread nD τ).loc main_arg0))
    (mulf (F := Ideal) (m ((c : Thread nD τ).loc main_arg1)) (sitofp .f32 (m ((c : Thread nD τ).loc main_arg3))))
    (m ((c : Thread nD τ).loc main_arg2))

/-- The block product of the s-th point of t's run, at block entry (p, q), read through the whole arrays at the
    entry's row R = (I 0) and column C = (I 1). -/
theorem addend_eq (c : Dev nD) (t : Fin cfg0.N) (s : ℕ) (hs : s < 4) (p q : Fin 1024) (I : S8192x4096.Idx)
    (h0 : (I 0).val = 1024 * (t.val / 16) + p.val) (h1 : (I 1).val = 1024 * (t.val / 4 % 4) + q.val) :
    Accum.addend m c (4 * (t.val / 4) + s) (ix2 p q)
      = Linear.blockTerm (m ((c : Thread nD τ).loc main_arg0))
          (mulf (F := Ideal) (m ((c : Thread nD τ).loc main_arg1)) (sitofp .f32 (m ((c : Thread nD τ).loc main_arg3)))) I s := by
  have hN : cfg0.N = 128 := N_0
  have ht := t.isLt
  have hn : 4 * (t.val / 4) + s < cfg0.N := by omega
  unfold Accum.addend Linear.blockTerm
  rw [dif_pos hn]
  refine Accum.blockProduct_eq_sum _ _ p q _ fun r => ?_
  have hr := r.isLt
  have hk : (Linear.kIdx s r).val = 1024 * s + r.val := BlockSum.wrap_val_of_lt _ (by omega)
  rw [Blocks.x_block_apply m c ⟨4 * (t.val / 4) + s, hn⟩ p r (ix2 (I 0) (Linear.kIdx s r))
      (by show (I 0).val = 1024 * ((4 * (t.val / 4) + s) / 16) + p.val; omega)
      (by show (Linear.kIdx s r).val = 1024 * ((4 * (t.val / 4) + s) % 4) + r.val; omega),
    Blocks.w_block_apply m c ⟨4 * (t.val / 4) + s, hn⟩ q r (ix2 (I 1) (Linear.kIdx s r))
      (by show (I 1).val = 1024 * ((4 * (t.val / 4) + s) / 4 % 4) + q.val; omega)
      (by show (Linear.kIdx s r).val = 1024 * ((4 * (t.val / 4) + s) % 4) + r.val; omega),
    Blocks.x_entry, Blocks.w_entry]

/-- What a last point writes, at block entry (p, q), is the layer's entry at the entry's place in the result. -/
theorem written_entry (c : Dev nD) (t : Fin cfg0.N) (h3 : t.val % 4 = 3) (p q : Fin 1024) (I : S8192x4096.Idx)
    (h0 : (I 0).val = 1024 * (t.val / 16) + p.val) (h1 : (I 1).val = 1024 * (t.val / 4 % 4) + q.val) :
    k0_pay3 (F := Ideal) ((outsAt0 m c t.val t.isLt).2) (iblk m c 2 t) (ix2 p q) = result m c I := by
  rw [Payload.epilogue_apply, Accum.scratch_eq, h3,
    Blocks.bias_block_apply m c t q (ix2 (0 : Fin 1) (I 1)) h1,
    Blocks.bias_entry m c (ix2 (0 : Fin 1) (I 1)) (ix1 (I 1)) rfl]
  unfold result
  rw [← Linear.linear_eq_blocks]
  refine congrArg (fun z => (0 + z) + _) (Finset.sum_congr rfl fun s hs => ?_)
  exact addend_eq m c t s (by have := Finset.mem_range.mp hs; omega) p q I h0 h1

/-- What a last point writes back is its block of the layer function. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  obtain ⟨-, -, -, -, -, -, e0, e1⟩ := Blocks.block_index t
  rw [Value.flushed3, Accum.out_eq m c t h3]
  funext y
  obtain ⟨p, q, rfl⟩ : ∃ (p : Fin 1024) (q : Fin 1024), y = ix2 p q := ⟨y 0, y 1, eq_ix2 y⟩
  rw [View.read_apply]
  show k0_pay3 (F := Ideal) ((outsAt0 m c t.val t.isLt).2) (iblk m c 2 t) (ix2 p q)
    = result m c (((cfg0.win 3).blk t).view.emb (ix2 p q))
  refine written_entry m c t h3 p q _ ?_ ?_
  · show win0_3.index t (0 : Fin 2) * 1024 + 1 * p.val = 1024 * (t.val / 16) + p.val; omega
  · show win0_3.index t (1 : Fin 2) * 1024 + 1 * q.val = 1024 * (t.val / 4 % 4) + q.val; omega

/-- Every entry of the result lies in the block some last point writes back. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  obtain ⟨tv, htv⟩ : ∃ tv : ℕ, tv = 16 * ((i 0).val / 1024) + 4 * ((i 1).val / 1024) + 3 := ⟨_, rfl⟩
  have hlt : tv < cfg0.N := by omega
  obtain ⟨-, -, -, -, -, -, e0, e1⟩ := Blocks.block_index ⟨tv, hlt⟩
  have e0' : win0_3.index ⟨tv, hlt⟩ (0 : Fin 2) = tv / 16 := e0
  have e1' : win0_3.index ⟨tv, hlt⟩ (1 : Fin 2) = tv / 4 % 4 := e1
  refine ⟨⟨tv, hlt⟩, (flush0_3 _).mpr (by show tv % 4 = 3; omega), ?_⟩
  show i ∈ ((View.whole main_v5).slice (win0_3.rect ⟨tv, hlt⟩)).set
  rw [View.set_slice_whole, Rect.mem_set_unit]
  intro a
  match a with
  | ⟨0, _⟩ =>
    show win0_3.index ⟨tv, hlt⟩ (0 : Fin 2) * 1024 ≤ (i 0).val
      ∧ (i 0).val < win0_3.index ⟨tv, hlt⟩ (0 : Fin 2) * 1024 + 1024
    omega
  | ⟨1, _⟩ =>
    show win0_3.index ⟨tv, hlt⟩ (1 : Fin 2) * 1024 ≤ (i 1).val
      ∧ (i 1).val < win0_3.index ⟨tv, hlt⟩ (1 : Fin 2) * 1024 + 1024
    omega

/-- After the run the result array holds the layer function of the arguments. -/
theorem final (c : Dev nD) : (dats m 0 c).arrAt 3 cfg0.N = result m c :=
  (dats m 0 c).arrAt_eq_of_cover 3 (result m c) (flushed_eq m c) cover

/-- The kernel's run: it terminates with the result array at the layer function, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.ReferenceResult.lean ====
/-
  The reference's result. The reference multiplies the weight by its mask read as a float, contracts x with it over
  the second axis of both in one product, and adds the bias broadcast over the rows; read at an entry (R, C) that is
  the sum over the 4096 contraction indices k of x[R, k] · w[C, k], plus b[C]: the layer function itself.
-/
import proofs.«157323_j85787676770758_2_alg».proof.Proof.Gen.ReferenceIdeal.Read
import proofs.«157323_j85787676770758_2_alg».proof.Proof.Linear

noncomputable section

namespace Cert.ReferenceIdeal.RefValue

open Cert.ReferenceIdeal Cert.ReferenceIdeal.Gen Idealize.ShloMosaic Idealize.ShloMosaic.ValueIdx

/-- The reference's result term is the layer function of its arguments. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .i32⟩ : BufTy).Contents (Elt Ideal)) :
    Read.val_main_v5 (F := Ideal) x0 x1 x2 x3 = Linear.linear x0 (mulf (F := Ideal) x1 (sitofp .f32 x3)) x2 := by
  funext I
  have el : ∀ k : Fin 4096, Read.lidx_main_v2 I k = ix2 (I 0) k := fun k => funext fun a => Fin.ext (by
    match a with
    | ⟨0, _⟩ => rfl
    | ⟨1, _⟩ => rfl)
  have er : ∀ k : Fin 4096, Read.ridx_main_v2 I k = ix2 (I 1) k := fun k => funext fun a => Fin.ext (by
    match a with
    | ⟨0, _⟩ => rfl
    | ⟨1, _⟩ => rfl)
  have eb : Read.idx_main_v3 (Read.idx_main_v4 I) = ix1 (I 1) := funext fun a => Fin.ext (by
    match a with
    | ⟨0, _⟩ => rfl)
  rw [Read.val_main_v5_apply, Read.val_main_v2_apply, Read.val_main_v4_apply, Read.val_main_v3_apply]
  simp only [el, er, eb]
  rfl

end Cert.ReferenceIdeal.RefValue

end
-- ==== Proof.lean ====
/-
  The masked linear layer  y = x · (weight ∘ mask)ᵀ + bias  for x of 8192 × 4096, weight and mask of 4096 × 4096 and
  bias of 4096: a tiled kernel against a one-product reference, equal as extended reals.

  The kernel first forms the masked weight w = weight × mask-read-as-a-float, entry by entry, then walks a grid of
  8 × 4 × 4 points (row block, column block, contraction block; tiles of 1024). For one row block and column block it
  zeroes a 1024 × 1024 accumulator at the first contraction block, adds at each of the four contraction blocks the
  product of the x tile and the w tile (contracting 1024 indices), and at the last one writes accumulator + bias
  tile to the result. So the result's entry (R, C) is
      ((((0 + P₀) + P₁) + P₂) + P₃) + b[C],   Pₛ = Σ_{r < 1024} x[R, 1024·s + r] · w[C, 1024·s + r].
  The reference forms the same w and computes Σ_{k < 4096} x[R, k] · w[C, k] + b[C] in one contraction.
  The two agree because a sum over 4096 indices is the sum of its four consecutive blocks of 1024, and 0 + z = z:
  only associativity and commutativity of addition are used, which hold on all of the extended reals, so the
  finiteness of the inputs is not needed for the values. Changes of float format (the kernel rounds x and w to a
  narrower format before the products) are the identity on the extended reals, and the idealization rewrote nothing.

  Modules: BlockSum (the sum-by-blocks law), Linear (the layer as one function, and its blockwise form), Payload (the
  body's three stored values at an index), StoredValues (what each control case leaves, as those values), Blocks
  (what a grid point reads of the whole arrays, and what the arrays are at region entry), Accum (the accumulator
  across a run of four points), KernelResult (the result array is the layer function), ReferenceResult (so is the
  reference's).
-/
import proofs.«157323_j85787676770758_2_alg».proof.Defs
import proofs.«157323_j85787676770758_2_alg».proof.Proof.Gen.Kernel
import proofs.«157323_j85787676770758_2_alg».proof.Proof.Gen.Kernel.Skeleton
import proofs.«157323_j85787676770758_2_alg».proof.Proof.Gen.Kernel.Launch
import proofs.«157323_j85787676770758_2_alg».proof.Proof.Gen.Kernel.Points
import proofs.«157323_j85787676770758_2_alg».proof.Proof.Gen.Kernel.Frame
import proofs.«157323_j85787676770758_2_alg».proof.Proof.Gen.KernelIdeal
import proofs.«157323_j85787676770758_2_alg».proof.Proof.Gen.KernelIdeal.Skeleton
import proofs.«157323_j85787676770758_2_alg».proof.Proof.Gen.KernelIdeal.Launch
import proofs.«157323_j85787676770758_2_alg».proof.Proof.Gen.KernelIdeal.Points
import proofs.«157323_j85787676770758_2_alg».proof.Proof.Gen.KernelIdeal.Frame
import proofs.«157323_j85787676770758_2_alg».proof.Proof.Gen.ReferenceIdeal
import proofs.«157323_j85787676770758_2_alg».proof.Proof.Gen.KernelIdeal.Value
import proofs.«157323_j85787676770758_2_alg».proof.Proof.Gen.ReferenceIdeal.Run
import proofs.«157323_j85787676770758_2_alg».proof.Proof.Gen.ReferenceIdeal.Read
import proofs.«157323_j85787676770758_2_alg».proof.Proof.Gen.Pre_finite_inputs
import proofs.«157323_j85787676770758_2_alg».proof.Proof.KernelResult
import proofs.«157323_j85787676770758_2_alg».proof.Proof.ReferenceResult
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the layer function of the arguments in their result. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
